-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v30) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x1 : S_.BroadcastsInDim S1024x1 (![] : Fin 0 → Fin S1024x1.rank)
  reducesTo_S1024x1_S_d0_1 : S1024x1.ReducesTo [0, 1] S_

variable [Facts]

def fn_part1 {F : FTy → Type} [FloatOps F] (main_v13 : IVec S_ 1) (main_v16 : IVec S1024x1 1) : IVec S_ 1 :=
  let main_c_5 : IVec S_ 1 := constantI S_ 1 1#1
  let main_v17 : IVec S_ 1 := (fun x v => Host.reduce IntOp.andi x v reducesTo_S1024x1_S_d0_1 h_S_) main_v16 main_c_5
  let main_v18 : IVec S_ 1 := andi main_v13 main_v17
  main_v18

def fn {F : FTy → Type} [FloatOps F] (main_arg0 : FVec F S16384x1024 .f32) (main_arg1 : FVec F S1024x1024 .f32) (main_arg2 : FVec F S1024 .f32) (main_arg3 : FVec F S1024x1 .f32) (main_arg4 : IVec S1024x1024 32) (main_arg5 : IVec S1024x1024 32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1 .f32 := Host.absf main_arg3
  let main_cst_4 : FVec F S_ .f32 := constant S_ .f32 0x7F800000#32
  let main_v15 : FVec F S1024x1 .f32 := broadcastInDim S1024x1 ![] bcast_S_S1024x1 main_cst_4
  let main_v16 : IVec S1024x1 1 := cmpf .olt main_v14 main_v15
  fn_part1 (F := F) main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1x1024 : Shape := ⟨2, ![1, 1024]⟩
abbrev S128 : Shape := ⟨1, ![128]⟩
abbrev S128x8x128x8 : Shape := ⟨4, ![128, 8, 128, 8]⟩
abbrev S128x1 : Shape := ⟨2, ![128, 1]⟩
abbrev S128x2 : Shape := ⟨2, ![128, 2]⟩
abbrev S128x8x8 : Shape := ⟨3, ![128, 8, 8]⟩

abbrev nBuf : Space → Nat
  | .hbm => 45
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1024x1024, .i32⟩
  | .hbm, ⟨5, _⟩ => ⟨S1024x1024, .i32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S16384x1024, .f32⟩
  | .hbm, ⟨24, _⟩ => ⟨S128, .i32⟩
  | .hbm, ⟨25, _⟩ => ⟨S128x8x128x8, .f32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S_, .i32⟩
  | .hbm, ⟨37, _⟩ => ⟨S128, .i32⟩
  | .hbm, ⟨38, _⟩ => ⟨S128, .i32⟩
  | .hbm, ⟨39, _⟩ => ⟨S128, .i32⟩
  | .hbm, ⟨40, _⟩ => ⟨S128x1, .i32⟩
  | .hbm, ⟨41, _⟩ => ⟨S128x1, .i32⟩
  | .hbm, ⟨42, _⟩ => ⟨S128x2, .i32⟩
  | .hbm, ⟨43, _⟩ => ⟨S128x8x8, .f32⟩
  | .hbm, ⟨44, _⟩ => ⟨S128x8x8, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S1024x1024, .f32⟩
  | .local _ .vmem, ⟨5, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_0 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_1 : Ref sig .tc := ⟨.hbm, 33, rfl⟩
abbrev main_v21 : Ref sig .tc := ⟨.hbm, 34, rfl⟩
abbrev main_v22 : Ref sig .tc := ⟨.hbm, 35, rfl⟩
abbrev main_c_2 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  shapeCasts_S1024x1024_S128x8x128x8 : S1024x1024.ShapeCasts S128x8x128x8
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  dot_S1024x1024_S1024x1024_S1024x1024_1_0_0_1_n_n_wf : DotDims.WF S1024x1024 S1024x1024 S1024x1024 [1] [0] [0] [1] [] []
  gather_S128x8x128x8_S128x2_S128x8x8_12_02_n_n_02_1_1818_wf : GatherDims.WF S128x8x128x8 S128x2 S128x8x8 [1, 2] [0, 2] [] [0, 2] [] 1 ![1, 8, 1, 8]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S16384x1024.size a
  hwx0_3 : ∀ i : grid0.Coords, EltTy.bits .f32 = 32 ∨ (Rect.block (s := S16384x1024) S1024x1024.size (cc0_transform_3 i) (hinb0_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def gather_S128x8x128x8_S128x2_S128x8x8_12_02_n_n_02_1_1818 : GatherDims S128x8x128x8 S128x2 S128x8x8 where
  offsetDims := [1, 2]
  collapsedSliceDims := [0, 2]
  operandBatchingDims := []
  startIndicesBatchingDims := []
  startIndexMap := [0, 2]
  indexVectorDim := 1
  sliceSizes := ![1, 8, 1, 8]
  wf := gather_S128x8x128x8_S128x2_S128x8x8_12_02_n_n_02_1_1818_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x1 : Shape := ⟨2, ![1024, 1]⟩
abbrev S_ : Shape := ⟨0, ![]⟩
abbrev S1x1024 : Shape := ⟨2, ![1, 1024]⟩
abbrev S128 : Shape := ⟨1, ![128]⟩
abbrev S128x8x128x8 : Shape := ⟨4, ![128, 8, 128, 8]⟩
abbrev S128x1 : Shape := ⟨2, ![128, 1]⟩
abbrev S128x2 : Shape := ⟨2, ![128, 2]⟩
abbrev S128x8x8 : Shape := ⟨3, ![128, 8, 8]⟩

abbrev nBuf : Space → Nat
  | .hbm => 48
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1024, .f32⟩
  | .hbm, ⟨2, _⟩ => ⟨S1024, .f32⟩
  | .hbm, ⟨3, _⟩ => ⟨S1024x1, .f32⟩
  | .hbm, ⟨4, _⟩ => ⟨S1024x1024, .i32⟩
  | .hbm, ⟨5, _⟩ => ⟨S1024x1024, .i32⟩
  | .hbm, ⟨6, _⟩ => ⟨S1024x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024, .f32⟩
  | .hbm, ⟨15, _⟩ => ⟨S1024x1, .f32⟩
  | .hbm, ⟨16, _⟩ => ⟨S1024x1, .f32⟩
  | .hbm, ⟨17, _⟩ => ⟨S1024x1, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S128, .i32⟩
  | .hbm, ⟨28, _⟩ => ⟨S128x8x128x8, .f32⟩
  | .hbm, ⟨29, _⟩ => ⟨S_, .i32⟩
  | .hbm, ⟨30, _⟩ => ⟨S128, .i32⟩
  | .hbm, ⟨31, _⟩ => ⟨S128, .i1⟩
  | .hbm, ⟨32, _⟩ => ⟨S_, .i32⟩
  | .hbm, ⟨33, _⟩ => ⟨S128, .i32⟩
  | .hbm, ⟨34, _⟩ => ⟨S128, .i32⟩
  | .hbm, ⟨35, _⟩ => ⟨S128, .i32⟩
  | .hbm, ⟨36, _⟩ => ⟨S_, .i32⟩
  | .hbm, ⟨37, _⟩ => ⟨S128, .i32⟩
  | .hbm, ⟨38, _⟩ => ⟨S128, .i1⟩
  | .hbm, ⟨39, _⟩ => ⟨S_, .i32⟩
  | .hbm, ⟨40, _⟩ => ⟨S128, .i32⟩
  | .hbm, ⟨41, _⟩ => ⟨S128, .i32⟩
  | .hbm, ⟨42, _⟩ => ⟨S128, .i32⟩
  | .hbm, ⟨43, _⟩ => ⟨S128x1, .i32⟩
  | .hbm, ⟨44, _⟩ => ⟨S128x1, .i32⟩
  | .hbm, ⟨45, _⟩ => ⟨S128x2, .i32⟩
  | .hbm, ⟨46, _⟩ => ⟨S128x8x8, .f32⟩
  | .hbm, ⟨47, _⟩ => ⟨S128x8x8, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_v20 : Ref sig .tc := ⟨.hbm, 31, rfl⟩
abbrev main_c_0 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]

class Facts₀ : Prop where
  reducesTo_S1024x1024_S1024_d1 : S1024x1024.ReducesTo [1] S1024
  h_S_ : 0 < S_.numel
  bcast_S1024_S1024x1_0 : S1024.BroadcastsInDim S1024x1 (![0] : Fin 1 → Fin S1024x1.rank)
  bcast_S1024x1_S1024x1024_0_1 : S1024x1.BroadcastsInDim S1024x1024 (![0, 1] : Fin 2 → Fin S1024x1024.rank)
  transposes_S1024x1024_S1024x1024_1_0 : S1024x1024.Transposes [1, 0] S1024x1024
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  shapeCasts_S1024x1024_S128x8x128x8 : S1024x1024.ShapeCasts S128x8x128x8
  bcast_S_S128 : S_.BroadcastsInDim S128 (![] : Fin 0 → Fin S128.rank)
  bcast_S128_S128x1_0 : S128.BroadcastsInDim S128x1 (![0] : Fin 1 → Fin S128x1.rank)
  concatenates_S128x1_S128x1_S128x2_d1 : Shape.Concatenates [S128x1, S128x1] S128x2 1
  dot_S16384x1024_S1024x1024_S16384x1024_1_0_0_1_n_n_wf : DotDims.WF S16384x1024 S1024x1024 S16384x1024 [1] [0] [0] [1] [] []
  gather_S128x8x128x8_S128x2_S128x8x8_12_02_n_n_02_1_1818_wf : GatherDims.WF S128x8x128x8 S128x2 S128x8x8 [1, 2] [0, 2] [] [0, 2] [] 1 ![1, 8, 1, 8]

variable [Facts₀]

def dot_S16384x1024_S1024x1024_S16384x1024_1_0_0_1_n_n : DotDims S16384x1024 S1024x1024 S16384x1024 where
  lhsContracting := [1]
  rhsContracting := [0]
  lhsNonContracting := [0]
  rhsNonContracting := [1]
  lhsBatch := []
  rhsBatch := []
  wf := dot_S16384x1024_S1024x1024_S16384x1024_1_0_0_1_n_n_wf
def gather_S128x8x128x8_S128x2_S128x8x8_12_02_n_n_02_1_1818 : GatherDims S128x8x128x8 S128x2 S128x8x8 where
  offsetDims := [1, 2]
  collapsedSliceDims := [0, 2]
  operandBatchingDims := []
  startIndicesBatchingDims := []
  startIndexMap := [0, 2]
  indexVectorDim := 1
  sliceSizes := ![1, 8, 1, 8]
  wf := gather_S128x8x128x8_S128x2_S128x8x8_12_02_n_n_02_1_1818_wf

class Facts : Prop extends Facts₀ where

variable [Facts]
-- ==== Proof.Spec.lean ====
/-
  The first result of both programs as one function of three arrays: the rows of `x` mapped by a weight matrix and
  shifted by a bias. Entry `(r, c)` is `∑ k, x (r, k) * wt (k, c) + b c` on the extended reals. The weight matrix is a
  parameter: both programs hand the same one (the transposed normalised weights) to this map, and nothing about it
  is needed to compare them.
-/
import Idealize.ShloMosaic.PureOps.Ideal
import Idealize.ShloMosaic.Lib.ValueIdx

noncomputable section

namespace Cert.Bridge

open Idealize.ShloMosaic Idealize.ShloMosaic.ValueIdx

/-- `x · wt + b`, the bias added to every row: entry `(r, c)` is `∑ k, x (r, k) * wt (k, c) + b c`. -/
def affine (x : (⟨⟨2, ![16384, 1024]⟩, .f32⟩ : BufTy).Contents (Elt Ideal)) (wt : (⟨⟨2, ![1024, 1024]⟩, .f32⟩ : BufTy).Contents (Elt Ideal))
    (b : (⟨⟨1, ![1024]⟩, .f32⟩ : BufTy).Contents (Elt Ideal)) : (⟨⟨2, ![16384, 1024]⟩, .f32⟩ : BufTy).Contents (Elt Ideal) :=
  fun i => (∑ k : Fin 1024, x (ix2 (i 0) k) * wt (ix2 k (i 1))) + b (ix1 (i 1))

end Cert.Bridge

end
-- ==== Proof.Affine.lean ====
/-
  The first result of both programs is an affine map of the rows of `x`: entry `(r, c)` is
  `∑ k, x (r, k) * wt (k, c) + b c` on the extended reals, where `wt` is the transposed normalised weight matrix
  (whatever it is: both programs build it by the same host operations, and it is never opened here) and `b` the bias.

  This module shows that the reference's last stage for its first result is that function (`affine`):
  the host `dot_general` contracts `x`'s columns with `wt`'s rows, and the bias vector, laid along a new leading
  unit axis and repeated down the rows, contributes `b c` at every row.
-/
import proofs.«144556_j38431367364723_1_alg».proof.Proof.Gen.ReferenceIdeal.Read
import proofs.«144556_j38431367364723_1_alg».proof.Proof.Spec

noncomputable section

namespace Cert.Bridge

open Idealize.ShloMosaic Idealize.ShloMosaic.ValueIdx Cert.ReferenceIdeal Cert.ReferenceIdeal.Read

/-- The transposed normalised weights, as the reference's stages build them from `W`, the log-scales and the two masks. -/
abbrev weightsT (x1 : (⟨S1024x1024, .f32⟩ : BufTy).Contents (Elt Ideal)) (x3 : (⟨S1024x1, .f32⟩ : BufTy).Contents (Elt Ideal))
    (x4 x5 : (⟨S1024x1024, .i32⟩ : BufTy).Contents (Elt Ideal)) : (⟨S1024x1024, .f32⟩ : BufTy).Contents (Elt Ideal) :=
  val_main_v12 (F := Ideal) x1 x3 x4 x5

/-- The reference's first result is the affine map of `x` by the transposed normalised weights and the bias. -/
theorem reference_affine (x0 : (⟨S16384x1024, .f32⟩ : BufTy).Contents (Elt Ideal)) (x1 : (⟨S1024x1024, .f32⟩ : BufTy).Contents (Elt Ideal))
    (x2 : (⟨S1024, .f32⟩ : BufTy).Contents (Elt Ideal)) (x3 : (⟨S1024x1, .f32⟩ : BufTy).Contents (Elt Ideal))
    (x4 x5 : (⟨S1024x1024, .i32⟩ : BufTy).Contents (Elt Ideal)) :
    val_main_v16 (F := Ideal) x0 x1 x2 x3 x4 x5 = affine x0 (weightsT x1 x3 x4 x5) x2 := by
  funext i
  rw [val_main_v16_apply, val_main_v13_apply, val_main_v15_apply, val_main_v14_apply]
  show _ = affine x0 (val_main_v12 (F := Ideal) x1 x3 x4 x5) x2 i
  generalize val_main_v12 (F := Ideal) x1 x3 x4 x5 = wt
  have e1 : ∀ k : Fin 1024, lidx_main_v13 i k = ix2 (i 0) k := fun k => funext fun a => Fin.ext (by
    match a with
    | ⟨0, _⟩ => rfl
    | ⟨1, _⟩ => rfl)
  have e2 : ∀ k : Fin 1024, ridx_main_v13 i k = ix2 k (i 1) := fun k => funext fun a => Fin.ext (by
    match a with
    | ⟨0, _⟩ => rfl
    | ⟨1, _⟩ => rfl)
  have e3 : idx_main_v14 (idx_main_v15 i) = ix1 (i 1) := funext fun a => Fin.ext (by
    match a with
    | ⟨0, _⟩ => rfl)
  simp only [e1, e2, e3]
  rfl

end Cert.Bridge

end
-- ==== Proof.LibPlainMatmul.lean ====
/-
  A plain two-dimensional matrix product into a zero accumulator, read at a row and a column.

  For dimension numbers that contract the left operand's columns with the right operand's rows, with no batch axis,
  entry `(r, c)` of the product of an `[M, K]` matrix and a `[K, N]` matrix accumulated into zero is the sum over
  `k` of `lhs (r, k) * rhs (k, c)` on the extended reals: the accumulator contributes `0`, and the contraction
  index, a rank-one index, is re-indexed by its one coordinate. Stated for any extents and float formats, with the
  dimension numbers given by their six lists, so that any printed record with these lists unifies.
-/
import Idealize.ShloMosaic.PureOps.Ideal.Laws
import Idealize.ShloMosaic.Lib.ValueIdx

namespace Cert.Lib.PlainMatmul

open Idealize.ShloMosaic Idealize.ShloMosaic.ValueIdx

set_option backward.isDefEq.respectTransparency.types false in
/-- The product of `[M, K]` by `[K, N]` into the zero splat, at `(r, c)`: `∑ k, lhs (r, k) * rhs (k, c)`. -/
theorem matmul_zero_apply {M K N : ℕ} {φ₁ φ₂ : FTy}
    (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (lhs : FVec Ideal ⟨2, ![M, K]⟩ φ₁) (rhs : FVec Ideal ⟨2, ![K, N]⟩ φ₂)
    (r : Fin M) (c : Fin N) :
    FloatOps.matmul d prec lhs rhs (constant ⟨2, ![M, N]⟩ .f32 0x00000000#32) (ix2 r c)
      = ∑ k : Fin K, lhs (ix2 r k) * rhs (ix2 k c) := by
  obtain ⟨lc, rc, ln, rn, lb, rb, wf⟩ := d
  dsimp only at hlc hrc hln hrn hlb hrb
  subst hlc hrc hln hrn hlb hrb
  rw [Ideal.matmul_constant_zero_apply]
  rw [← Equiv.sum_comp (contrEquiv1 (⟨[1], [0], [0], [1], [], [], wf⟩ : DotDims ⟨2, ![M, K]⟩ ⟨2, ![K, N]⟩ ⟨2, ![M, N]⟩) K rfl rfl).symm]
  refine Finset.sum_congr rfl fun k _ => ?_
  have hk := contrEquiv1_symm_val (⟨[1], [0], [0], [1], [], [], wf⟩ : DotDims ⟨2, ![M, K]⟩ ⟨2, ![K, N]⟩ ⟨2, ![M, N]⟩) K rfl rfl k
  have el : (⟨[1], [0], [0], [1], [], [], wf⟩ : DotDims ⟨2, ![M, K]⟩ ⟨2, ![K, N]⟩ ⟨2, ![M, N]⟩).lhsIdx (ix2 r c)
      ((contrEquiv1 (⟨[1], [0], [0], [1], [], [], wf⟩ : DotDims ⟨2, ![M, K]⟩ ⟨2, ![K, N]⟩ ⟨2, ![M, N]⟩) K rfl rfl).symm k) = ix2 r k :=
    funext fun a => Fin.ext (by
      match a with
      | ⟨0, h0⟩ =>
        unfold DotDims.lhsIdx
        rw [dif_neg (show ¬ (⟨0, h0⟩ : Fin 2) ∈ ([] : List (Fin 2)) from List.not_mem_nil),
          dif_pos (show (⟨0, h0⟩ : Fin 2) ∈ [(0 : Fin 2)] from List.mem_singleton.mpr rfl)]
        rfl
      | ⟨1, _⟩ => exact (DotDims.lhsIdx_val_of_single _ rfl _ _).trans hk)
  have er : (⟨[1], [0], [0], [1], [], [], wf⟩ : DotDims ⟨2, ![M, K]⟩ ⟨2, ![K, N]⟩ ⟨2, ![M, N]⟩).rhsIdx (ix2 r c)
      ((contrEquiv1 (⟨[1], [0], [0], [1], [], [], wf⟩ : DotDims ⟨2, ![M, K]⟩ ⟨2, ![K, N]⟩ ⟨2, ![M, N]⟩) K rfl rfl).symm k) = ix2 k c :=
    funext fun a => Fin.ext (by
      match a with
      | ⟨0, _⟩ => exact (DotDims.rhsIdx_val_of_single _ rfl _ _).trans hk
      | ⟨1, h1⟩ =>
        unfold DotDims.rhsIdx
        rw [dif_neg (show ¬ (⟨1, h1⟩ : Fin 2) ∈ ([] : List (Fin 2)) from List.not_mem_nil),
          dif_pos (show (⟨1, h1⟩ : Fin 2) ∈ [(1 : Fin 2)] from List.mem_singleton.mpr rfl)]
        rfl)
  rw [el, er]

end Cert.Lib.PlainMatmul
-- ==== Proof.Payload.lean ====
/-
  What the kernel body stores, read at an entry. The body rounds a block of `x` and the whole transposed weight
  matrix to bf16 (the identity on the extended reals), multiplies them into a zero accumulator, and adds the bias
  vector laid out as one row and repeated down the block. Entry `(p, q)` of the stored block is therefore
  `∑ k, xblk (p, k) * wt (k, q) + b q`.
-/
import proofs.«144556_j38431367364723_1_alg».proof.Proof.Gen.KernelIdeal.Skeleton
import proofs.«144556_j38431367364723_1_alg».proof.Proof.LibPlainMatmul
import Idealize.ShloMosaic.Lib.ValueLayout

noncomputable section

namespace Cert.KernelIdeal.Body

open Idealize.ShloMosaic Idealize.ShloMosaic.ValueIdx Cert.KernelIdeal Cert.KernelIdeal.Gen

/-- The stored block at `(p, q)`: row `p` of the block of `x` against column `q` of the weights, plus the bias at `q`. -/
theorem payload_apply (x0 : Vec Ideal S1024x1024 .f32) (x1 : Vec Ideal S1024x1024 .f32) (x2 : Vec Ideal S1024 .f32)
    (p q : Fin 1024) :
    k0_pay1 (F := Ideal) x0 x1 x2 (ix2 p q) = (∑ k : Fin 1024, x0 (ix2 p k) * x1 (ix2 k q)) + x2 (ix1 q) := by
  unfold k0_pay1
  refine (addf_apply _ _ _).trans ?_
  refine congrArg₂ (· + ·) ?_ ?_
  · refine (Cert.Lib.PlainMatmul.matmul_zero_apply dot_S1024x1024_S1024x1024_S1024x1024_1_0_0_1_n_n rfl rfl rfl rfl rfl rfl
      none _ _ p q).trans ?_
    refine Finset.sum_congr rfl fun k _ => ?_
    rw [shapeCast_self]
    rfl
  · refine (broadcastTo_1b_ab_apply _ broadcasts_S1x1024_S1024x1024 p q).trans ?_
    exact shapeCast_a_1a_apply x2 shapeCasts_S1024_S1x1024 0 q

end Cert.KernelIdeal.Body

end
-- ==== Proof.Blocks.lean ====
/-
  From what each grid point writes back to the whole first result of the kernel.

  Point `t` of the sixteen stores rows `1024 t … 1024 t + 1023` of the result: the body's value at entry `(p, q)` of its
  block is `∑ k, xblk (p, k) * wt (k, q) + b q`, the block of `x` being rows `1024 t + p` of the argument and the weight
  matrix and the bias being read whole at every point. So each written block is the block of one function of the
  arrays the region finds (`affine`), the sixteen blocks tile the result's rows, and the result array ends holding
  that function.
-/
import proofs.«144556_j38431367364723_1_alg».proof.Proof.Gen.KernelIdeal.Frame
import proofs.«144556_j38431367364723_1_alg».proof.Proof.Payload
import proofs.«144556_j38431367364723_1_alg».proof.Proof.Spec
import Idealize.ShloMosaic.Lib.Pipeline.Value

noncomputable section

namespace Cert.KernelIdeal.Blocks

open Idealize.ShloMosaic Idealize.ShloMosaic.TcCoe Idealize.SL.Sem Idealize.ShloMosaic.ValueIdx
open Idealize.ShloMosaic.Pipeline (Dat)
open Cert.KernelIdeal Cert.KernelIdeal.Gen Cert.Bridge

variable (m : (ℓ : Loc nD τ sig) → Buf (Elt Ideal) ℓ)

theorem zero2 : (![0, 0] : Fin 2 → Nat) = fun _ => 0 := funext fun a => by fin_cases a <;> rfl
theorem zero1 : (![0] : Fin 1 → Nat) = fun _ => 0 := funext fun a => by fin_cases a <;> rfl

/-- The body's stored value at an entry of its block is the affine map at an entry of the result, once the three
    loaded blocks are known to be the matching rows of `X`, the whole of `WT` and the whole of `B`. -/
theorem block_entry (x0 x1 : Vec Ideal S1024x1024 .f32) (x2 : Vec Ideal S1024 .f32)
    (X : (⟨⟨2, ![16384, 1024]⟩, .f32⟩ : BufTy).Contents (Elt Ideal)) (WT : (⟨⟨2, ![1024, 1024]⟩, .f32⟩ : BufTy).Contents (Elt Ideal))
    (B : (⟨⟨1, ![1024]⟩, .f32⟩ : BufTy).Contents (Elt Ideal)) (j : S1024x1024.Idx) (i : S16384x1024.Idx)
    (h0 : ∀ k : Fin 1024, x0 (ix2 (j 0) k) = X (ix2 (i 0) k))
    (h1 : ∀ k : Fin 1024, x1 (ix2 k (j 1)) = WT (ix2 k (i 1)))
    (h2 : x2 (ix1 (j 1)) = B (ix1 (i 1))) :
    k0_pay1 (F := Ideal) x0 x1 x2 j = affine X WT B i := by
  obtain ⟨p, q, rfl⟩ : ∃ (p : Fin 1024) (q : Fin 1024), j = ix2 p q := ⟨j 0, j 1, eq_ix2 j⟩
  have h0' : ∀ k : Fin 1024, x0 (ix2 p k) = X (ix2 (i 0) k) := h0
  have h1' : ∀ k : Fin 1024, x1 (ix2 k q) = WT (ix2 k (i 1)) := h1
  have h2' : x2 (ix1 q) = B (ix1 (i 1)) := h2
  rw [Cert.KernelIdeal.Body.payload_apply]
  unfold affine
  simp only [h0', h1', h2']

/-- The printed index maps over the grid: the block of `x` moves with the result's block down the rows, point `t` at
    block row `t`; the weights and the bias stay at block zero. -/
theorem idx_facts : ∀ t : Fin cfg0.N, win0_0.index t (0 : Fin 2) = win0_3.index t (0 : Fin 2)
    ∧ win0_0.index t (1 : Fin 2) = 0
    ∧ win0_3.index t (1 : Fin 2) = 0
    ∧ win0_1.index t (0 : Fin 2) = 0
    ∧ win0_1.index t (1 : Fin 2) = 0
    ∧ win0_2.index t (0 : Fin 1) = 0
    ∧ win0_3.index t (0 : Fin 2) = t.val :=
  (by decide +kernel : ∀ t : Fin grid0.N, _)

/-- What point `t` writes back is block `t` of the affine map of the arrays the region finds. -/
theorem flushed_eq (c : Dev nD) (t : Fin cfg0.N) :
    (dats m 0 c).flushed 3 t
      = ((cfg0.win 3).blk t).view.read (Elt Ideal) (affine (V m c main_arg0) (V m c main_v12) (V m c main_arg2)) := by
  show (cfg0.win 3).cut (grid0.coords t) ((dats m 0 c).after 3 t) = _
  rw [after0_3]
  unfold out0_3
  rw [View.canon_unit_zero zero2]
  simp only [View.ld_unit_zero (S := S1024x1024) zero2, View.ld_unit_zero (S := S1024) zero1]
  obtain ⟨e0, e1, e2, e3, e4, e5, -⟩ := idx_facts t
  funext j
  show k0_pay1 (iblk m c 0 t) (iblk m c 1 t) (iblk m c 2 t) j
    = affine (V m c main_arg0) (V m c main_v12) (V m c main_arg2) (((cfg0.win 3).blk t).view.emb j)
  refine block_entry _ _ _ _ _ _ j _ (fun k => ?_) (fun k => ?_) ?_
  · show V m c main_arg0 (((cfg0.win 0).blk t).view.emb (ix2 (j 0) k)) = V m c main_arg0 (ix2 ((((cfg0.win 3).blk t).view.emb j) 0) k)
    have h : ((cfg0.win 0).blk t).view.emb (ix2 (j 0) k) = ix2 ((((cfg0.win 3).blk t).view.emb j) 0) k := by
      funext a; apply Fin.ext
      match a with
      | ⟨0, _⟩ => show win0_0.index t (0 : Fin 2) * 1024 + 1 * (j 0).val = win0_3.index t (0 : Fin 2) * 1024 + 1 * (j 0).val; rw [e0]
      | ⟨1, _⟩ => show win0_0.index t (1 : Fin 2) * 1024 + 1 * k.val = k.val; rw [e1]; omega
    rw [h]
    rfl
  · show V m c main_v12 (((cfg0.win 1).blk t).view.emb (ix2 k (j 1))) = V m c main_v12 (ix2 k ((((cfg0.win 3).blk t).view.emb j) 1))
    have h : ((cfg0.win 1).blk t).view.emb (ix2 k (j 1)) = ix2 k ((((cfg0.win 3).blk t).view.emb j) 1) := by
      funext a; apply Fin.ext
      match a with
      | ⟨0, _⟩ => show win0_1.index t (0 : Fin 2) * 1024 + 1 * k.val = k.val; rw [e3]; omega
      | ⟨1, _⟩ => show win0_1.index t (1 : Fin 2) * 1024 + 1 * (j 1).val = win0_3.index t (1 : Fin 2) * 1024 + 1 * (j 1).val; rw [e4, e2]
    rw [h]
    rfl
  · show V m c main_arg2 (((cfg0.win 2).blk t).view.emb (ix1 (j 1))) = V m c main_arg2 (ix1 ((((cfg0.win 3).blk t).view.emb j) 1))
    have h : ((cfg0.win 2).blk t).view.emb (ix1 (j 1)) = ix1 ((((cfg0.win 3).blk t).view.emb j) 1) := by
      funext a; apply Fin.ext
      match a with
      | ⟨0, _⟩ => show win0_2.index t (0 : Fin 1) * 1024 + 1 * (j 1).val = win0_3.index t (1 : Fin 2) * 1024 + 1 * (j 1).val; rw [e5, e2]
    rw [h]
    rfl

/-- An entry of the result is in point `t`'s block iff each coordinate is in the block's range on its axis. -/
theorem mem_blk (t : Fin cfg0.N) (i : S16384x1024.Idx) :
    i ∈ ((cfg0.win 3).blk t).view.set
      ↔ ∀ a : Fin 2, win0_3.index t a * S1024x1024.size a ≤ (i a).val ∧ (i a).val < win0_3.index t a * S1024x1024.size a + S1024x1024.size a := by
  show i ∈ ((View.whole main_v13).slice (win0_3.rect t)).set ↔ _
  rw [View.set_slice_whole, Rect.mem_set_unit]
  exact Iff.rfl

/-- Row `r` of the result is written by point `r / 1024`. -/
theorem cover (i : S16384x1024.Idx) :
    ∃ t : Fin cfg0.N, (cfg0.win 3).flush t = true ∧ i ∈ ((cfg0.win 3).blk t).view.set := by
  have hi0 : (i 0).val < 16384 := (i 0).isLt
  have hi1 : (i 1).val < 1024 := (i 1).isLt
  have hN : cfg0.N = 16 := N_0
  obtain ⟨t, ht⟩ : ∃ t : Fin cfg0.N, t.val = (i 0).val / 1024 := ⟨⟨(i 0).val / 1024, by rw [hN]; omega⟩, rfl⟩
  obtain ⟨-, -, e2, -, -, -, e6⟩ := idx_facts t
  refine ⟨t, flush0_3 t, ?_⟩
  rw [mem_blk]
  intro a
  match a with
  | ⟨0, _⟩ =>
    show win0_3.index t (0 : Fin 2) * 1024 ≤ (i 0).val ∧ (i 0).val < win0_3.index t (0 : Fin 2) * 1024 + 1024
    rw [e6, ht]; omega
  | ⟨1, _⟩ =>
    show win0_3.index t (1 : Fin 2) * 1024 ≤ (i 1).val ∧ (i 1).val < win0_3.index t (1 : Fin 2) * 1024 + 1024
    rw [e2]; omega

/-- The result array after the region: the affine map of the arrays the region finds. -/
theorem final_y (c : Dev nD) :
    (dats m 0 c).arrAt 3 cfg0.N = affine (V m c main_arg0) (V m c main_v12) (V m c main_arg2) :=
  (dats m 0 c).arrAt_eq_of_cover 3 (affine (V m c main_arg0) (V m c main_v12) (V m c main_arg2))
    (fun t _ => flushed_eq m c t) cover

end Cert.KernelIdeal.Blocks

end
-- ==== Proof.HostSide.lean ====
/-
  The host operations around the kernel's region, read as functions of the argument arrays.

  Before the region the program builds the normalised weights — `exp W` on the diagonal blocks plus `W` on the strictly
  lower blocks, each row scaled by `exp` of its log-scale and divided by the row's Euclidean norm — and their transpose,
  by the very operations the reference uses; after the region it gathers the diagonal 8×8 blocks of the normalised
  weights and takes their logarithm, again as the reference does. So the array the region is handed as its second
  operand is the reference's transposed-weights stage, and the second result is the reference's last stage, of the
  same argument arrays. The region itself writes neither the normalised weights nor anything the gather reads.
-/
import proofs.«144556_j38431367364723_1_alg».proof.Proof.Gen.KernelIdeal.Frame
import proofs.«144556_j38431367364723_1_alg».proof.Proof.Gen.ReferenceIdeal.Read
import Idealize.ShloMosaic.Lib.StableHlo.Run

noncomputable section

namespace Cert.KernelIdeal.HostSide

open Idealize.ShloMosaic Idealize.ShloMosaic.TcCoe Idealize.SL.Sem Idealize.ShloMosaic.StableHlo Idealize.ShloMosaic.Tactic
open Cert.KernelIdeal Cert.KernelIdeal.Gen

variable (m : (ℓ : Loc nD τ sig) → Buf (Elt Ideal) ℓ)

set_option maxHeartbeats 2000000 in
set_option maxRecDepth 8192 in
/-- The normalised weights, as the region finds them, are the reference's stage of the same name. -/
theorem weights_entry (c : Dev nD) :
    (V0 m c (Proc.devRef .tc main_v11) : S1024x1024.Idx → Elt Ideal .f32)
      = Cert.ReferenceIdeal.Read.val_main_v11 (F := Ideal) (m ((c.tc : Thread nD τ).loc main_arg1)) (m ((c.tc : Thread nD τ).loc main_arg3))
          (m ((c.tc : Thread nD τ).loc main_arg4)) (m ((c.tc : Thread nD τ).loc main_arg5)) := by
  dsimp only [Gen.V0]
  simp only [Gen.hostOps0, Gen.hostOps0_1, Gen.hostOps0_2, List.flatten_cons, List.flatten_nil, List.append_nil, List.cons_append,
    List.nil_append]
  after_results_simp
  rfl

set_option maxHeartbeats 2000000 in
set_option maxRecDepth 8192 in
/-- The region's second operand is the reference's transposed normalised weights. -/
theorem weightsT_entry (c : Dev nD) :
    (V m c main_v12 : S1024x1024.Idx → Elt Ideal .f32)
      = Cert.ReferenceIdeal.Read.val_main_v12 (F := Ideal) (m ((c.tc : Thread nD τ).loc main_arg1)) (m ((c.tc : Thread nD τ).loc main_arg3))
          (m ((c.tc : Thread nD τ).loc main_arg4)) (m ((c.tc : Thread nD τ).loc main_arg5)) := by
  dsimp only [Gen.V, Gen.V0]
  simp only [Gen.hostOps0, Gen.hostOps0_1, Gen.hostOps0_2, List.flatten_cons, List.flatten_nil, List.append_nil, List.cons_append,
    List.nil_append]
  after_results_simp
  rfl

set_option maxHeartbeats 2000000 in
set_option maxRecDepth 8192 in
/-- The second result, as the operations after the region leave it: the logarithm of the diagonal blocks of the
    normalised weights, the reference's last stage. The region's arrays are not among what these operations read. -/
theorem logdiag_exit (c : Dev nD) :
    (Pipeline.afterTail₀ cfgs (dats m) 0 (V0 m) [hostOps1] c main_v30 : S128x8x8.Idx → Elt Ideal .f32)
      = Cert.ReferenceIdeal.Read.val_main_v33 (F := Ideal) (m ((c.tc : Thread nD τ).loc main_arg1)) (m ((c.tc : Thread nD τ).loc main_arg3))
          (m ((c.tc : Thread nD τ).loc main_arg4)) (m ((c.tc : Thread nD τ).loc main_arg5)) := by
  unfold Pipeline.afterTail₀
  simp only [Gen.hostOps1, List.flatten_cons, List.flatten_nil, List.append_nil]
  after_results_simp
  rw [Pipeline.withArrays_of_ne _ c (V0 m c) _ main_v11 (by exact (by decide : ∀ w, Pipeline.arrRef spec0 w ≠ main_v11)),
    weights_entry m c]
  rfl

end Cert.KernelIdeal.HostSide

end
-- ==== Proof.KernelRun.lean ====
/-
  The idealized kernel's run, read: its first result is the affine map of `x` by the transposed normalised weights
  and the bias, its second the logarithm of the diagonal blocks of the normalised weights — both as functions of the
  argument arrays, which end unchanged.

  The first result is the region's output array, which the sixteen grid points fill block by block with the affine map
  of the arrays the region finds; of those, `x` and the bias are the arguments themselves and the weight matrix is what
  the host operations before the region computed. The second result is computed after the region from the normalised
  weights, which the region does not touch.
-/
import proofs.«144556_j38431367364723_1_alg».proof.Proof.Blocks
import proofs.«144556_j38431367364723_1_alg».proof.Proof.HostSide

noncomputable section

namespace Cert.KernelIdeal.Result

open Idealize.ShloMosaic Idealize.ShloMosaic.TcCoe Idealize.SL.Sem
open Cert.KernelIdeal Cert.KernelIdeal.Gen Cert.Bridge

variable (m : (ℓ : Loc nD τ sig) → Buf (Elt Ideal) ℓ) (ρ : Dev nD → PrngReg)

/-- The output array after the region, as a function of the argument arrays. -/
theorem output_array (c : Dev nD) :
    (dats m 0 c).arrAt 3 cfg0.N
      = affine (m ((c.tc : Thread nD τ).loc main_arg0))
          (Cert.ReferenceIdeal.Read.val_main_v12 (F := Ideal) (m ((c.tc : Thread nD τ).loc main_arg1)) (m ((c.tc : Thread nD τ).loc main_arg3))
            (m ((c.tc : Thread nD τ).loc main_arg4)) (m ((c.tc : Thread nD τ).loc main_arg5)))
          (m ((c.tc : Thread nD τ).loc main_arg2)) := by
  rw [Cert.KernelIdeal.Blocks.final_y, V_main_arg0, V_main_arg2, Cert.KernelIdeal.HostSide.weightsT_entry]

/-- Every weakly fair execution of the idealized kernel's program terminates with its two results at those functions
    of the argument arrays and the arguments unchanged. -/
theorem run : θ_run defs (onTc (τ := τ) (main (F := Ideal))) ⟨m, fun _ => 0, ρ⟩ fun r => ∀ c : Dev nD,
      r.2.mem ((c.tc : Thread nD τ).loc main_v13)
        = affine (m ((c.tc : Thread nD τ).loc main_arg0))
            (Cert.ReferenceIdeal.Read.val_main_v12 (F := Ideal) (m ((c.tc : Thread nD τ).loc main_arg1)) (m ((c.tc : Thread nD τ).loc main_arg3))
              (m ((c.tc : Thread nD τ).loc main_arg4)) (m ((c.tc : Thread nD τ).loc main_arg5)))
            (m ((c.tc : Thread nD τ).loc main_arg2))
      ∧ r.2.mem ((c.tc : Thread nD τ).loc main_v30)
        = Cert.ReferenceIdeal.Read.val_main_v33 (F := Ideal) (m ((c.tc : Thread nD τ).loc main_arg1)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c).1 3).trans (output_array m c),
      ((h c).2 main_v30 (Pipeline.mem_restRefs_of main_v30 (by decide) (by decide))).trans (Cert.KernelIdeal.HostSide.logdiag_exit m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c)⟩)
    (run_main m ρ)

end Cert.KernelIdeal.Result

end
-- ==== Proof.lean ====
/-
  The kernel computes `y = x · Wnᵀ + bias` in a gridded matrix-product kernel, one block of 1024 rows of `x` per grid
  point, and `log` of the diagonal 8×8 blocks of `Wn` on the host, where `Wn` is the weight matrix normalised row by
  row on the host: `exp W` on the diagonal blocks plus `W` on the strictly lower blocks, scaled by `exp` of the row's
  log-scale and divided by the row's Euclidean norm. The reference computes the same two results with one host
  `dot_general`.

  On the extended reals the two agree with no condition on the inputs: both programs build `Wn`, its transpose and the
  gathered logarithms by the same host operations, so those are one function of the arguments on both sides and are
  never opened; and an entry of `y` is on both sides `∑ k, x (r, k) * Wnᵀ (k, c) + bias c` — the kernel's rounding of its
  operands to bf16 is the identity there, its product into a zero accumulator is that sum, and the sixteen blocks tile
  the rows of the result. The idealization rewrote nothing, so `preserves` is trivial; the three frames are the
  generated ones (the reference's is its generated run with the results dropped).
-/
import proofs.«144556_j38431367364723_1_alg».proof.Defs
import proofs.«144556_j38431367364723_1_alg».proof.Proof.Gen.Kernel
import proofs.«144556_j38431367364723_1_alg».proof.Proof.Gen.Kernel.Skeleton
import proofs.«144556_j38431367364723_1_alg».proof.Proof.Gen.Kernel.Launch
import proofs.«144556_j38431367364723_1_alg».proof.Proof.Gen.Kernel.Points
import proofs.«144556_j38431367364723_1_alg».proof.Proof.Gen.Kernel.Frame
import proofs.«144556_j38431367364723_1_alg».proof.Proof.Gen.KernelIdeal
import proofs.«144556_j38431367364723_1_alg».proof.Proof.Gen.KernelIdeal.Skeleton
import proofs.«144556_j38431367364723_1_alg».proof.Proof.Gen.KernelIdeal.Launch
import proofs.«144556_j38431367364723_1_alg».proof.Proof.Gen.KernelIdeal.Points
import proofs.«144556_j38431367364723_1_alg».proof.Proof.Gen.KernelIdeal.Frame
import proofs.«144556_j38431367364723_1_alg».proof.Proof.Gen.ReferenceIdeal
import proofs.«144556_j38431367364723_1_alg».proof.Proof.Gen.ReferenceIdeal.Run
import proofs.«144556_j38431367364723_1_alg».proof.Proof.Gen.ReferenceIdeal.Read
import proofs.«144556_j38431367364723_1_alg».proof.Proof.Gen.Pre_finite_inputs
import proofs.«144556_j38431367364723_1_alg».proof.Proof.Affine
import proofs.«144556_j38431367364723_1_alg».proof.Proof.KernelRun
import Idealize.ShloMosaic.Adequacy
import Idealize.ShloMosaic.Init

noncomputable section

namespace Cert.Proof

open Idealize.ShloMosaic Idealize.SL.Sem

/-- Both programs end with `x · Wnᵀ + bias` and the logarithm of `Wn`'s diagonal blocks, of arguments that agree. -/
theorem algebraic : Cert.algebraic_KernelIdeal_ReferenceIdeal
    (hKernelIdeal := Cert.KernelIdeal.Gen.facts) (hReferenceIdeal := Cert.ReferenceIdeal.Gen.facts)
    (hPre_finite_inputs := Cert.Pre_finite_inputs.Gen.facts) := by
  intro m ρ m' ρ' _ hagree
  refine ⟨_, _, Cert.KernelIdeal.Result.run m ρ, ?_⟩
  refine (θ_run Cert.ReferenceIdeal.defs _ _).mono (fun _ h c => ?_) (Cert.ReferenceIdeal.Value.run (F := Ideal) m' ρ')
  obtain ⟨h0, h1, h2, h3, h4, h5⟩ := hagree c
  refine ⟨(h c).1.trans ?_, (h c).2.1.trans ?_, (h c).2.2⟩
  · rw [Cert.ReferenceIdeal.Read.val_main_v16_eq, Cert.Bridge.reference_affine, h0, h1, h2, h3, h4, h5]
  · rw [Cert.ReferenceIdeal.Read.val_main_v33_eq, h1, h3, h4, h5]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2.2) (Cert.ReferenceIdeal.Value.run (F := Ideal) m ρ),
  trivial,
  algebraic⟩

end Cert.Proof

end
